-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50_1)) (v1 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_1) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x64 .f32) (main_arg9 : FVec F S32 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩
abbrev S5000x1 : Shape := ⟨2, ![5000, 1]⟩
abbrev S64x32 : Shape := ⟨2, ![64, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 72
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S100000, .f32⟩
  | .hbm, ⟨18, _⟩ => ⟨S1250000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .bf16⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000x64, .bf16⟩
  | .hbm, ⟨37, _⟩ => ⟨S1250000x64, .f32⟩
  | .hbm, ⟨38, _⟩ => ⟨S_, .f32⟩
  | .hbm, ⟨39, _⟩ => ⟨S100000x64, .f32⟩
  | .hbm, ⟨40, _⟩ => ⟨S1250000x1, .i32⟩
  | .hbm, ⟨41, _⟩ => ⟨S100000x64, .f32⟩
  | .hbm, ⟨42, _⟩ => ⟨S64x64, .f32⟩
  | .hbm, ⟨43, _⟩ => ⟨S64x64, .bf16⟩
  | .hbm, ⟨44, _⟩ => ⟨S64x64, .f32⟩
  | .hbm, ⟨45, _⟩ => ⟨S64x64, .bf16⟩
  | .hbm, ⟨46, _⟩ => ⟨S1x64, .f32⟩
  | .hbm, ⟨47, _⟩ => ⟨S100000x64, .bf16⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .bf16⟩
  | .hbm, ⟨57, _⟩ => ⟨S1250000x64, .f32⟩
  | .hbm, ⟨58, _⟩ => ⟨S_, .f32⟩
  | .hbm, ⟨59, _⟩ => ⟨S100000x64, .f32⟩
  | .hbm, ⟨60, _⟩ => ⟨S1250000x1, .i32⟩
  | .hbm, ⟨61, _⟩ => ⟨S100000x64, .f32⟩
  | .hbm, ⟨62, _⟩ => ⟨S64x64, .f32⟩
  | .hbm, ⟨63, _⟩ => ⟨S64x64, .bf16⟩
  | .hbm, ⟨64, _⟩ => ⟨S64x64, .f32⟩
  | .hbm, ⟨65, _⟩ => ⟨S64x64, .bf16⟩
  | .hbm, ⟨66, _⟩ => ⟨S1x64, .f32⟩
  | .hbm, ⟨67, _⟩ => ⟨S64x32, .f32⟩
  | .hbm, ⟨68, _⟩ => ⟨S64x32, .bf16⟩
  | .hbm, ⟨69, _⟩ => ⟨S1x32, .f32⟩
  | .hbm, ⟨70, _⟩ => ⟨S100000x64, .f32⟩
  | .hbm, ⟨71, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .bf16⟩
  | .local _ .vmem, ⟨5, _⟩ => ⟨S5000x64, .bf16⟩
  | .local _ .vmem, ⟨6, _⟩ => ⟨S64x64, .bf16⟩
  | .local _ .vmem, ⟨7, _⟩ => ⟨S1x64, .f32⟩
  | .local _ .vmem, ⟨8, _⟩ => ⟨S64x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S64x64, .bf16⟩
  | .local _ .vmem, ⟨18, _⟩ => ⟨S1x64, .f32⟩
  | .local _ .vmem, ⟨19, _⟩ => ⟨S64x64, .bf16⟩
  | .local _ .vmem, ⟨20, _⟩ => ⟨S64x32, .bf16⟩
  | .local _ .vmem, ⟨21, _⟩ => ⟨S1x32, .f32⟩
  | .local _ .vmem, ⟨22, _⟩ => ⟨S5000x64, .f32⟩
  | .local _ .vmem, ⟨23, _⟩ => ⟨S5000x64, .f32⟩
  | .local _ .vmem, ⟨24, _⟩ => ⟨S5000x32, .f32⟩
  | .local _ .vmem, ⟨25, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .bf16 = 32 ∨ (Rect.block (s := S64x32) S64x32.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v50_1) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S100000x64, .f32⟩
  | .hbm, ⟨61, _⟩ => ⟨S1250000x1, .i32⟩
  | .hbm, ⟨62, _⟩ => ⟨S100000x64, .f32⟩
  | .hbm, ⟨63, _⟩ => ⟨S_, .f32⟩
  | .hbm, ⟨64, _⟩ => ⟨S1250000, .f32⟩
  | .hbm, ⟨65, _⟩ => ⟨S_, .f32⟩
  | .hbm, ⟨66, _⟩ => ⟨S100000, .f32⟩
  | .hbm, ⟨67, _⟩ => ⟨S1250000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x32, .f32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its two results named. The program is two pipelined regions among stretches of
  host operations. Launched over its four segments (host stretch, region, host stretch, region) every weakly fair
  execution ends with every unscoped buffer at the last boundary's contents; read there at the argument arrays it gives
  the frame, and read also at the two result arrays it says each holds what the last boundary's contents hold there.
-/
import proofs.«134198_j72361609003660_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of @main terminates, nothing faulting, with the two result arrays at the last
    boundary's contents and the argument arrays as launched. -/
theorem run_out : θ_run defs (onTc (τ := τ) (main (F := F))) ⟨m, fun _ => 0, ρ⟩ (fun r => ∀ c : Dev nD,
      r.2.mem ((c.tc : Thread nD τ).loc main_v50_1) = W4 m ρ c (Proc.devRef .tc main_v50_1)
      ∧ r.2.mem ((c.tc : Thread nD τ).loc main_v50_0) = W4 m ρ c (Proc.devRef .tc main_v50_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v50_1 (by decide)),
       h c _ (mem_uc main_v50_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Gen

end
-- ==== Proof.Sage.lean ====
/-
  A two-layer neighbourhood-mean graph convolution with a linear head, entry by entry on the extended reals.
  One layer sends a table of node features x and its neighbourhood sums a to
      relu( (a / d) · Wl + b + x · Wr ),
  d the clipped in-degree of the node (at least one). Two arrangements of the same layer are stated here over arrays
  of literal rank whose extents are parameters, so that the same text serves a row block and the whole table:
    * `layerK`: the sums scaled by a reciprocal column inv (one entry per row), both products added first and the
      bias row last;
    * `layerR`: the sums divided by the clipped degree of the row, the bias added to the first product and the
      second product last.
  They agree whenever inv holds the reciprocals 1 / d of degrees that are not zero (`layerK_eq_layerR`): a quotient by
  a divisor other than zero is the product with its inverse, and addition of extended reals is commutative and
  associative, so no entry has to be finite. Nothing here depends on a program.
-/
import Idealize.ShloMosaic.Lib.ValueIdx
import Idealize.ShloMosaic.Lib.IdealHost
import Idealize.ShloMosaic.PureOps.Ideal.Laws

noncomputable section

open scoped BigOperators

namespace Cert.Sage

open Idealize.ShloMosaic Idealize.ShloMosaic.ValueIdx

/-- One layer, the kernel's arrangement: row r of the neighbourhood sums scaled by inv(r, 0), its product with Wl
    plus the product of the features with Wr, plus the bias row, clipped below at zero. -/
def layerK {R K N : Nat} (a : (⟨2, ![R, K]⟩ : Shape).Idx → EReal) (inv : (⟨2, ![R, 1]⟩ : Shape).Idx → EReal)
    (x : (⟨2, ![R, K]⟩ : Shape).Idx → EReal) (wl wr : (⟨2, ![K, N]⟩ : Shape).Idx → EReal)
    (b : (⟨2, ![1, N]⟩ : Shape).Idx → EReal) : (⟨2, ![R, N]⟩ : Shape).Idx → EReal :=
  fun j => max ((∑ k : Fin K, (a (ix2 (j 0) k) * inv (ix2 (j 0) (0 : Fin 1))) * wl (ix2 k (j 1))
      + ∑ k : Fin K, x (ix2 (j 0) k) * wr (ix2 k (j 1))) + b (ix2 (0 : Fin 1) (j 1))) 0

/-- The linear head, the kernel's arrangement: the product with Wc plus the bias row. -/
def headK {R K N : Nat} (h : (⟨2, ![R, K]⟩ : Shape).Idx → EReal) (wc : (⟨2, ![K, N]⟩ : Shape).Idx → EReal)
    (bc : (⟨2, ![1, N]⟩ : Shape).Idx → EReal) : (⟨2, ![R, N]⟩ : Shape).Idx → EReal :=
  fun j => ∑ k : Fin K, h (ix2 (j 0) k) * wc (ix2 k (j 1)) + bc (ix2 (0 : Fin 1) (j 1))

/-- One layer, the reference's arrangement: row r of the neighbourhood sums divided by d(r), its product with Wl plus
    the bias, plus the product of the features with Wr, clipped below at zero. -/
def layerR {R K N : Nat} (a : (⟨2, ![R, K]⟩ : Shape).Idx → EReal) (d : (⟨1, ![R]⟩ : Shape).Idx → EReal)
    (x : (⟨2, ![R, K]⟩ : Shape).Idx → EReal) (wl wr : (⟨2, ![K, N]⟩ : Shape).Idx → EReal)
    (b : (⟨1, ![N]⟩ : Shape).Idx → EReal) : (⟨2, ![R, N]⟩ : Shape).Idx → EReal :=
  fun j => max ((∑ k : Fin K, Ideal.div (a (ix2 (j 0) k)) (d (ix1 (j 0))) * wl (ix2 k (j 1)) + b (ix1 (j 1)))
      + ∑ k : Fin K, x (ix2 (j 0) k) * wr (ix2 k (j 1))) 0

/-- The linear head, the reference's arrangement. -/
def headR {R K N : Nat} (h : (⟨2, ![R, K]⟩ : Shape).Idx → EReal) (wc : (⟨2, ![K, N]⟩ : Shape).Idx → EReal)
    (bc : (⟨1, ![N]⟩ : Shape).Idx → EReal) : (⟨2, ![R, N]⟩ : Shape).Idx → EReal :=
  fun j => ∑ k : Fin K, h (ix2 (j 0) k) * wc (ix2 k (j 1)) + bc (ix1 (j 1))

/-- A product with the reciprocal of a divisor other than zero is the quotient by it, on every extended real. -/
theorem mul_div_one (a d : EReal) (hd : d ≠ 0) : a * Ideal.div 1 d = Ideal.div a d := by
  unfold Ideal.div
  rw [if_neg hd, if_neg hd, one_mul]

/-- A degree clipped below at one is not zero. -/
theorem max_one_ne_zero (x : EReal) : max x 1 ≠ 0 :=
  ne_of_gt (lt_of_lt_of_le zero_lt_one (le_max_right x 1))

/-- THE TWO ARRANGEMENTS AGREE when the scale column holds the reciprocals of divisors other than zero and the bias
    row holds the bias vector. -/
theorem layerK_eq_layerR {R K N : Nat} (a : (⟨2, ![R, K]⟩ : Shape).Idx → EReal) (inv : (⟨2, ![R, 1]⟩ : Shape).Idx → EReal)
    (d : (⟨1, ![R]⟩ : Shape).Idx → EReal) (x : (⟨2, ![R, K]⟩ : Shape).Idx → EReal)
    (wl wr : (⟨2, ![K, N]⟩ : Shape).Idx → EReal) (b2 : (⟨2, ![1, N]⟩ : Shape).Idx → EReal) (b : (⟨1, ![N]⟩ : Shape).Idx → EReal)
    (hinv : ∀ r : Fin R, inv (ix2 r (0 : Fin 1)) = Ideal.div 1 (d (ix1 r))) (hd : ∀ r : Fin R, d (ix1 r) ≠ 0)
    (hb : ∀ c : Fin N, b2 (ix2 (0 : Fin 1) c) = b (ix1 c)) :
    layerK a inv x wl wr b2 = layerR a d x wl wr b := by
  funext j
  unfold layerK layerR
  rw [hb (j 1), hinv (j 0)]
  simp only [mul_div_one _ _ (hd (j 0))]
  rw [add_right_comm]

/-- The two arrangements of the head agree when the bias row holds the bias vector. -/
theorem headK_eq_headR {R K N : Nat} (h : (⟨2, ![R, K]⟩ : Shape).Idx → EReal) (wc : (⟨2, ![K, N]⟩ : Shape).Idx → EReal)
    (b2 : (⟨2, ![1, N]⟩ : Shape).Idx → EReal) (b : (⟨1, ![N]⟩ : Shape).Idx → EReal)
    (hb : ∀ c : Fin N, b2 (ix2 (0 : Fin 1) c) = b (ix1 c)) : headK h wc b2 = headR h wc b := by
  funext j
  unfold headK headR
  rw [hb (j 1)]

/-- A LAYER IS COMPUTED ROW BY ROW: on blocks that hold rows ρ(0), ρ(1), … of the tables (and the same weights and
    bias), entry (p, q) of the layer is entry (ρ p, q) of the layer of the whole tables. -/
theorem layerK_rows {R R' K N : Nat} (ρ : Fin R' → Fin R)
    (A : (⟨2, ![R, K]⟩ : Shape).Idx → EReal) (INV : (⟨2, ![R, 1]⟩ : Shape).Idx → EReal)
    (X : (⟨2, ![R, K]⟩ : Shape).Idx → EReal) (wl wr : (⟨2, ![K, N]⟩ : Shape).Idx → EReal)
    (b : (⟨2, ![1, N]⟩ : Shape).Idx → EReal)
    (a : (⟨2, ![R', K]⟩ : Shape).Idx → EReal) (inv : (⟨2, ![R', 1]⟩ : Shape).Idx → EReal)
    (x : (⟨2, ![R', K]⟩ : Shape).Idx → EReal) (wl' wr' : (⟨2, ![K, N]⟩ : Shape).Idx → EReal)
    (b' : (⟨2, ![1, N]⟩ : Shape).Idx → EReal)
    (ha : ∀ (r : Fin R') (k : Fin K), a (ix2 r k) = A (ix2 (ρ r) k))
    (hinv : ∀ r : Fin R', inv (ix2 r (0 : Fin 1)) = INV (ix2 (ρ r) (0 : Fin 1)))
    (hx : ∀ (r : Fin R') (k : Fin K), x (ix2 r k) = X (ix2 (ρ r) k))
    (hwl : ∀ (k : Fin K) (q : Fin N), wl' (ix2 k q) = wl (ix2 k q))
    (hwr : ∀ (k : Fin K) (q : Fin N), wr' (ix2 k q) = wr (ix2 k q))
    (hb : ∀ q : Fin N, b' (ix2 (0 : Fin 1) q) = b (ix2 (0 : Fin 1) q)) (p : Fin R') (q : Fin N) :
    layerK a inv x wl' wr' b' (ix2 p q) = layerK A INV X wl wr b (ix2 (ρ p) q) := by
  show max ((∑ k : Fin K, (a (ix2 p k) * inv (ix2 p (0 : Fin 1))) * wl' (ix2 k q)
      + ∑ k : Fin K, x (ix2 p k) * wr' (ix2 k q)) + b' (ix2 (0 : Fin 1) q)) 0
    = max ((∑ k : Fin K, (A (ix2 (ρ p) k) * INV (ix2 (ρ p) (0 : Fin 1))) * wl (ix2 k q)
      + ∑ k : Fin K, X (ix2 (ρ p) k) * wr (ix2 k q)) + b (ix2 (0 : Fin 1) q)) 0
  simp only [ha, hinv, hx, hwl, hwr, hb]

/-- The head is computed row by row in the same way. -/
theorem headK_rows {R R' K N : Nat} (ρ : Fin R' → Fin R)
    (H : (⟨2, ![R, K]⟩ : Shape).Idx → EReal) (wc : (⟨2, ![K, N]⟩ : Shape).Idx → EReal)
    (bc : (⟨2, ![1, N]⟩ : Shape).Idx → EReal)
    (h : (⟨2, ![R', K]⟩ : Shape).Idx → EReal) (wc' : (⟨2, ![K, N]⟩ : Shape).Idx → EReal)
    (bc' : (⟨2, ![1, N]⟩ : Shape).Idx → EReal)
    (hh : ∀ (r : Fin R') (k : Fin K), h (ix2 r k) = H (ix2 (ρ r) k))
    (hwc : ∀ (k : Fin K) (q : Fin N), wc' (ix2 k q) = wc (ix2 k q))
    (hb : ∀ q : Fin N, bc' (ix2 (0 : Fin 1) q) = bc (ix2 (0 : Fin 1) q)) (p : Fin R') (q : Fin N) :
    headK h wc' bc' (ix2 p q) = headK H wc bc (ix2 (ρ p) q) := by
  show ∑ k : Fin K, h (ix2 p k) * wc' (ix2 k q) + bc' (ix2 (0 : Fin 1) q)
    = ∑ k : Fin K, H (ix2 (ρ p) k) * wc (ix2 k q) + bc (ix2 (0 : Fin 1) q)
  simp only [hh, hwc, hb]

end Cert.Sage

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibUnitAxes.lean ====
/-
  Unit axes added, dropped and spread, read at an index given by its coordinates.
  A cast that adds or drops an axis of extent 1 keeps every entry where it was, and a broadcast
  along an axis of extent 1 repeats the operand along that axis: at an index the result is the
  operand at the index with the unit coordinate put at 0 (or dropped). Stated for any extents over
  the literal-rank index constructors `ix1`, `ix2`, `ix3`: a vector [a] as a column [a, 1] and back,
  a column [a, 1] spread to [a, b], a matrix [a, b] as [a, b, 1] and as [a, 1, b], an array
  [a, 1, c] spread to [a, b, c], an array [1, b, c] spread to [a, b, c].
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] cast to a vector [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column [a, 1] spread to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix [a, b] cast to [a, 1, b] reads, at (p, u, q), the matrix at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An array [a, 1, c] spread to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array [1, b, c] spread to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibUnitAxes

end
-- ==== Proof.Body.lean ====
/-
  The two kernel bodies' arithmetic at the ideal values, entry by entry. Each body loads a row block of neighbourhood
  sums, the block's column of reciprocal degrees, the block of node features, two weight matrices and a bias row, and
  stores relu((sums · reciprocal) · Wl + features · Wr + bias): `Cert.Sage.layerK` of the loaded blocks (a change of
  float format is the identity on extended reals, a matrix product into the zero accumulator the plain sum of
  products). The second body also stores the head, `Cert.Sage.headK` of that layer's block.
-/
import proofs.«134198_j72361609003660_2_alg».proof.Proof.Gen.KernelIdeal.Skeleton
import proofs.«134198_j72361609003660_2_alg».proof.Proof.Sage
import proofs.«134198_j72361609003660_2_alg».proof.Proof.LibMatmulAt
import proofs.«134198_j72361609003660_2_alg».proof.Proof.LibUnitAxes
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The first body's stored block is one layer of its loaded blocks. -/
theorem pay0_eq (v0 : FVec Ideal S5000x64 .f32) (v2 : FVec Ideal S5000x1 .f32) (v7 : FVec Ideal S5000x64 .bf16)
    (v9 v11 : FVec Ideal S64x64 .bf16) (v13 : FVec Ideal S1x64 .f32) :
    k0_pay1 (F := Ideal) v0 v2 v7 v9 v11 v13 = Cert.Sage.layerK v0 v2 v7 v9 v11 v13 := by
  funext j
  obtain ⟨p, q, rfl⟩ : ∃ (p : Fin 5000) (q : Fin 64), j = ix2 p q := ⟨j 0, j 1, eq_ix2 j⟩
  unfold k0_pay1 Cert.Sage.layerK
  simp only [truncf_apply, maximumf_apply, addf_apply, broadcast_apply, shapeCast_self]
  have e1 := matmul_zero_plain_apply dot_S5000x64_S64x64_S5000x64_1_0_0_1_n_n rfl none
    (truncf .bf16 (mulf v0 (broadcastTo S5000x64 v2 broadcasts_S5000x1_S5000x64)) bitsLt_bf16_f32) v9 (ix2 p q)
  have e2 := matmul_zero_plain_apply dot_S5000x64_S64x64_S5000x64_1_0_0_1_n_n rfl none v7 v11 (ix2 p q)
  have e3 := broadcastTo_1b_ab_apply v13 broadcasts_S1x64_S5000x64 p q
  have e4 : ∀ k : Fin 64, broadcastTo S5000x64 v2 broadcasts_S5000x1_S5000x64 (ix2 p k) = v2 (ix2 p (0 : Fin 1)) :=
    fun k => Cert.LibUnitAxes.broadcastTo_a1_ab_apply v2 broadcasts_S5000x1_S5000x64 p k
  rw [e1, e2, e3]
  simp only [truncf_apply, mulf_apply, e4, Ideal.ofBits_def, Ideal.ofBits_zero_f32]

/-- The second body's first stored block (the layer's output, kept in the wide format) is the same layer. -/
theorem pay1_eq (v0 : FVec Ideal S5000x64 .f32) (v2 : FVec Ideal S5000x1 .f32) (v7 : FVec Ideal S5000x64 .bf16)
    (v9 v11 : FVec Ideal S64x64 .bf16) (v15 : FVec Ideal S1x64 .f32) :
    k1_pay1 (F := Ideal) v0 v2 v7 v9 v11 v15 = Cert.Sage.layerK v0 v2 v7 v9 v11 v15 := by
  funext j
  obtain ⟨p, q, rfl⟩ : ∃ (p : Fin 5000) (q : Fin 64), j = ix2 p q := ⟨j 0, j 1, eq_ix2 j⟩
  unfold k1_pay1 Cert.Sage.layerK
  simp only [truncf_apply, maximumf_apply, addf_apply, broadcast_apply, shapeCast_self]
  have e1 := matmul_zero_plain_apply dot_S5000x64_S64x64_S5000x64_1_0_0_1_n_n rfl none
    (truncf .bf16 (mulf v0 (broadcastTo S5000x64 v2 broadcasts_S5000x1_S5000x64)) bitsLt_bf16_f32) v9 (ix2 p q)
  have e2 := matmul_zero_plain_apply dot_S5000x64_S64x64_S5000x64_1_0_0_1_n_n rfl none v7 v11 (ix2 p q)
  have e3 := broadcastTo_1b_ab_apply v15 broadcasts_S1x64_S5000x64 p q
  have e4 : ∀ k : Fin 64, broadcastTo S5000x64 v2 broadcasts_S5000x1_S5000x64 (ix2 p k) = v2 (ix2 p (0 : Fin 1)) :=
    fun k => Cert.LibUnitAxes.broadcastTo_a1_ab_apply v2 broadcasts_S5000x1_S5000x64 p k
  rw [e1, e2, e3]
  simp only [truncf_apply, mulf_apply, e4, Ideal.ofBits_def, Ideal.ofBits_zero_f32]

/-- The second body's second stored block is the head of that layer's block. -/
theorem pay2_eq (v0 : FVec Ideal S5000x64 .f32) (v2 : FVec Ideal S5000x1 .f32) (v7 : FVec Ideal S5000x64 .bf16)
    (v9 v11 : FVec Ideal S64x64 .bf16) (v13 : FVec Ideal S64x32 .bf16) (v15 : FVec Ideal S1x64 .f32)
    (v17 : FVec Ideal S1x32 .f32) :
    k1_pay2 (F := Ideal) v0 v2 v7 v9 v11 v13 v15 v17
      = Cert.Sage.headK (Cert.Sage.layerK v0 v2 v7 v9 v11 v15) v13 v17 := by
  funext j
  obtain ⟨p, q, rfl⟩ : ∃ (p : Fin 5000) (q : Fin 32), j = ix2 p q := ⟨j 0, j 1, eq_ix2 j⟩
  unfold k1_pay2 Cert.Sage.headK
  simp only [addf_apply, shapeCast_self]
  have e1 := matmul_zero_plain_apply dot_S5000x64_S64x32_S5000x32_1_0_0_1_n_n rfl none
    (truncf .bf16 (k1_pay1 (F := Ideal) v0 v2 v7 v9 v11 v15) bitsLt_bf16_f32) v13 (ix2 p q)
  have e3 := broadcastTo_1b_ab_apply v17 broadcasts_S1x32_S5000x32 p q
  rw [e1, e3]
  simp only [truncf_apply, pay1_eq]

end Cert.KernelIdeal.Hand

end
-- ==== Proof.Region0.lean ====
/-
  The first region's output array, as one function of the arrays the region finds. The grid has 20 points; point t
  stages rows 5000·t … 5000·t + 4999 of the neighbourhood sums, of the reciprocal-degree column and of the node
  features, the two weight matrices and the bias row whole, and writes back rows 5000·t … of the output. A layer is
  computed row by row (`Cert.Sage.layerK_rows`), so what point t writes back is block t of the layer of the whole
  arrays; the 20 blocks tile the output, which therefore ends holding that layer.
-/
import proofs.«134198_j72361609003660_2_alg».proof.Proof.Gen.KernelIdeal.Frame
import proofs.«134198_j72361609003660_2_alg».proof.Proof.Body

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the table. -/
def rowAt0 (t : Fin cfg0.N) (p : Fin 5000) : Fin 100000 :=
  ⟨t.val * 5000 + p.val, by have h1 : t.val < 20 := t.isLt; have h2 := p.isLt; omega⟩

/-- The printed index maps, decided over the grid: the row-blocked windows sit at block (t, 0), the whole-array windows
    at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The block of neighbourhood sums at point t, read at (p, k). -/
theorem blk0_0 (c : Dev nD) (t : Fin cfg0.N) (p : Fin 5000) (k : Fin 64) :
    iblk0 V c 0 t (ix2 p k) = V c main_v24 (ix2 (rowAt0 t p) k) := by
  show V c main_v24 (((cfg0.win 0).blk t).view.emb (ix2 p k)) = _
  refine congrArg _ ?_
  funext a; apply Fin.ext
  obtain ⟨e0, e1, -⟩ := idx_facts0 t
  match a with
  | ⟨0, _⟩ => show win0_0.index t (0 : Fin 2) * 5000 + 1 * p.val = t.val * 5000 + p.val; omega
  | ⟨1, _⟩ => show win0_0.index t (1 : Fin 2) * 64 + 1 * k.val = k.val; omega

/-- The block of reciprocal degrees at point t, read at (p, 0). -/
theorem blk0_1 (c : Dev nD) (t : Fin cfg0.N) (p : Fin 5000) :
    iblk0 V c 1 t (ix2 p (0 : Fin 1)) = V c main_v12 (ix2 (rowAt0 t p) (0 : Fin 1)) := by
  show V c main_v12 (((cfg0.win 1).blk t).view.emb (ix2 p (0 : Fin 1))) = _
  refine congrArg _ ?_
  funext a; apply Fin.ext
  obtain ⟨-, -, e0, e1, -⟩ := idx_facts0 t
  match a with
  | ⟨0, _⟩ => show win0_1.index t (0 : Fin 2) * 5000 + 1 * p.val = t.val * 5000 + p.val; omega
  | ⟨1, _⟩ => show win0_1.index t (1 : Fin 2) * 1 + 1 * 0 = 0; omega

/-- The block of node features at point t, read at (p, k). -/
theorem blk0_2 (c : Dev nD) (t : Fin cfg0.N) (p : Fin 5000) (k : Fin 64) :
    iblk0 V c 2 t (ix2 p k) = V c main_v13 (ix2 (rowAt0 t p) k) := by
  show V c main_v13 (((cfg0.win 2).blk t).view.emb (ix2 p k)) = _
  refine congrArg _ ?_
  funext a; apply Fin.ext
  obtain ⟨-, -, -, -, e0, e1, -⟩ := idx_facts0 t
  match a with
  | ⟨0, _⟩ => show win0_2.index t (0 : Fin 2) * 5000 + 1 * p.val = t.val * 5000 + p.val; omega
  | ⟨1, _⟩ => show win0_2.index t (1 : Fin 2) * 64 + 1 * k.val = k.val; omega

/-- The first weight matrix is staged whole. -/
theorem blk0_3 (c : Dev nD) (t : Fin cfg0.N) (k q : Fin 64) :
    iblk0 V c 3 t (ix2 k q) = V c main_v26 (ix2 k q) := by
  show V c main_v26 (((cfg0.win 3).blk t).view.emb (ix2 k q)) = _
  refine congrArg _ ?_
  funext a; apply Fin.ext
  obtain ⟨-, -, -, -, -, -, e0, e1, -⟩ := idx_facts0 t
  match a with
  | ⟨0, _⟩ => show win0_3.index t (0 : Fin 2) * 64 + 1 * k.val = k.val; omega
  | ⟨1, _⟩ => show win0_3.index t (1 : Fin 2) * 64 + 1 * q.val = q.val; omega

/-- The bias row is staged whole. -/
theorem blk0_4 (c : Dev nD) (t : Fin cfg0.N) (q : Fin 64) :
    iblk0 V c 4 t (ix2 (0 : Fin 1) q) = V c main_v29 (ix2 (0 : Fin 1) q) := by
  show V c main_v29 (((cfg0.win 4).blk t).view.emb (ix2 (0 : Fin 1) q)) = _
  refine congrArg _ ?_
  funext a; apply Fin.ext
  obtain ⟨-, -, -, -, -, -, -, -, e0, e1, -⟩ := idx_facts0 t
  match a with
  | ⟨0, _⟩ => show win0_4.index t (0 : Fin 2) * 1 + 1 * 0 = 0; omega
  | ⟨1, _⟩ => show win0_4.index t (1 : Fin 2) * 64 + 1 * q.val = q.val; omega

/-- The second weight matrix is staged whole. -/
theorem blk0_5 (c : Dev nD) (t : Fin cfg0.N) (k q : Fin 64) :
    iblk0 V c 5 t (ix2 k q) = V c main_v28 (ix2 k q) := by
  show V c main_v28 (((cfg0.win 5).blk t).view.emb (ix2 k q)) = _
  refine congrArg _ ?_
  funext a; apply Fin.ext
  obtain ⟨-, -, -, -, -, -, -, -, -, -, e0, e1, -⟩ := idx_facts0 t
  match a with
  | ⟨0, _⟩ => show win0_5.index t (0 : Fin 2) * 64 + 1 * k.val = k.val; omega
  | ⟨1, _⟩ => show win0_5.index t (1 : Fin 2) * 64 + 1 * q.val = q.val; omega

/-- Where entry (p, q) of point t's output block sits in the output array. -/
theorem emb0_6 (t : Fin cfg0.N) (p : Fin 5000) (q : Fin 64) :
    ((cfg0.win 6).blk t).view.emb (ix2 p q) = ix2 (rowAt0 t p) q := by
  funext a; apply Fin.ext
  obtain ⟨-, -, -, -, -, -, -, -, -, -, -, -, e0, e1⟩ := idx_facts0 t
  match a with
  | ⟨0, _⟩ => show win0_6.index t (0 : Fin 2) * 5000 + 1 * p.val = t.val * 5000 + p.val; omega
  | ⟨1, _⟩ => show win0_6.index t (1 : Fin 2) * 64 + 1 * q.val = q.val; omega

/-- The layer of the arrays the region finds. -/
abbrev G0 (c : Dev nD) : S100000x64.Idx → EReal :=
  Cert.Sage.layerK (V c main_v24) (V c main_v12) (V c main_v13) (V c main_v26) (V c main_v28) (V c main_v29)

/-- WHAT POINT t WRITES BACK is block t of the layer of the whole arrays. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz,
    View.ld_unit_zero (S := S64x64) hz, View.ld_unit_zero (S := S1x64) hz]
  rw [pay0_eq]
  funext j
  obtain ⟨p, q, rfl⟩ : ∃ (p : Fin 5000) (q : Fin 64), j = ix2 p q := ⟨j 0, j 1, eq_ix2 j⟩
  show Cert.Sage.layerK (iblk0 V c 0 t) (iblk0 V c 1 t) (iblk0 V c 2 t) (iblk0 V c 3 t) (iblk0 V c 5 t) (iblk0 V c 4 t) (ix2 p q)
    = G0 V c (((cfg0.win 6).blk t).view.emb (ix2 p q))
  rw [emb0_6 t p q]
  exact Cert.Sage.layerK_rows (rowAt0 t) _ _ _ _ _ _ _ _ _ _ _ _ (blk0_0 V c t) (blk0_1 V c t) (blk0_2 V c t)
    (blk0_3 V c t) (blk0_5 V c t) (blk0_4 V c t) p q

/-- An index of the output array is in point t's block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v30).slice (win0_6.rect t)).set ↔ _
  rw [View.set_slice_whole, Rect.mem_set_unit]
  exact Iff.rfl

/-- The 20 blocks tile the output array: row r is in block r / 5000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  refine ⟨t, flush0_6 t, ?_⟩
  rw [mem_blk0]
  obtain ⟨-, -, -, -, -, -, -, -, -, -, -, -, e0, e1⟩ := idx_facts0 t
  have ht : t.val = (i 0).val / 5000 := rfl
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- THE OUTPUT ARRAY after the region: the layer of the arrays the region finds. -/
theorem final0 (c : Dev nD) : (dat0 V c).arrAt 6 cfg0.N = G0 V c :=
  (dat0 V c).arrAt_eq_of_cover 6 (G0 V c) (fun t _ => flushed0 V c t) cover0

end Cert.KernelIdeal.Hand

end
-- ==== Proof.Region1.lean ====
/-
  The second region's two output arrays, as functions of the arrays the region finds. As in the first region the grid
  has 20 points and point t handles rows 5000·t … 5000·t + 4999: it writes back block t of the second layer's output
  and block t of the head applied to it. Both are computed row by row (`Cert.Sage.layerK_rows`,
  `Cert.Sage.headK_rows`), the blocks tile both arrays, and so the arrays end holding the layer and the head of the
  whole arrays.
-/
import proofs.«134198_j72361609003660_2_alg».proof.Proof.Gen.KernelIdeal.Frame
import proofs.«134198_j72361609003660_2_alg».proof.Proof.Body

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Row p of point t's block is row 5000·t + p of the table. -/
def rowAt1 (t : Fin cfg1.N) (p : Fin 5000) : Fin 100000 :=
  ⟨t.val * 5000 + p.val, by have h1 : t.val < 20 := t.isLt; have h2 := p.isLt; omega⟩

/-- The printed index maps, decided over the grid: the row-blocked windows sit at block (t, 0), the whole-array windows
    at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The block of second-layer neighbourhood sums at point t, read at (p, k). -/
theorem blk1_0 (c : Dev nD) (t : Fin cfg1.N) (p : Fin 5000) (k : Fin 64) :
    iblk1 V c 0 t (ix2 p k) = V c main_v41 (ix2 (rowAt1 t p) k) := by
  show V c main_v41 (((cfg1.win 0).blk t).view.emb (ix2 p k)) = _
  refine congrArg _ ?_
  funext a; apply Fin.ext
  obtain ⟨e0, e1, -⟩ := idx_facts1 t
  match a with
  | ⟨0, _⟩ => show win1_0.index t (0 : Fin 2) * 5000 + 1 * p.val = t.val * 5000 + p.val; omega
  | ⟨1, _⟩ => show win1_0.index t (1 : Fin 2) * 64 + 1 * k.val = k.val; omega

/-- The block of reciprocal degrees at point t, read at (p, 0). -/
theorem blk1_1 (c : Dev nD) (t : Fin cfg1.N) (p : Fin 5000) :
    iblk1 V c 1 t (ix2 p (0 : Fin 1)) = V c main_v12 (ix2 (rowAt1 t p) (0 : Fin 1)) := by
  show V c main_v12 (((cfg1.win 1).blk t).view.emb (ix2 p (0 : Fin 1))) = _
  refine congrArg _ ?_
  funext a; apply Fin.ext
  obtain ⟨-, -, e0, e1, -⟩ := idx_facts1 t
  match a with
  | ⟨0, _⟩ => show win1_1.index t (0 : Fin 2) * 5000 + 1 * p.val = t.val * 5000 + p.val; omega
  | ⟨1, _⟩ => show win1_1.index t (1 : Fin 2) * 1 + 1 * 0 = 0; omega

/-- The block of first-layer features at point t, read at (p, k). -/
theorem blk1_2 (c : Dev nD) (t : Fin cfg1.N) (p : Fin 5000) (k : Fin 64) :
    iblk1 V c 2 t (ix2 p k) = V c main_v30 (ix2 (rowAt1 t p) k) := by
  show V c main_v30 (((cfg1.win 2).blk t).view.emb (ix2 p k)) = _
  refine congrArg _ ?_
  funext a; apply Fin.ext
  obtain ⟨-, -, -, -, e0, e1, -⟩ := idx_facts1 t
  match a with
  | ⟨0, _⟩ => show win1_2.index t (0 : Fin 2) * 5000 + 1 * p.val = t.val * 5000 + p.val; omega
  | ⟨1, _⟩ => show win1_2.index t (1 : Fin 2) * 64 + 1 * k.val = k.val; omega

/-- The first weight matrix is staged whole. -/
theorem blk1_3 (c : Dev nD) (t : Fin cfg1.N) (k q : Fin 64) :
    iblk1 V c 3 t (ix2 k q) = V c main_v43 (ix2 k q) := by
  show V c main_v43 (((cfg1.win 3).blk t).view.emb (ix2 k q)) = _
  refine congrArg _ ?_
  funext a; apply Fin.ext
  obtain ⟨-, -, -, -, -, -, e0, e1, -⟩ := idx_facts1 t
  match a with
  | ⟨0, _⟩ => show win1_3.index t (0 : Fin 2) * 64 + 1 * k.val = k.val; omega
  | ⟨1, _⟩ => show win1_3.index t (1 : Fin 2) * 64 + 1 * q.val = q.val; omega

/-- The bias row is staged whole. -/
theorem blk1_4 (c : Dev nD) (t : Fin cfg1.N) (q : Fin 64) :
    iblk1 V c 4 t (ix2 (0 : Fin 1) q) = V c main_v46 (ix2 (0 : Fin 1) q) := by
  show V c main_v46 (((cfg1.win 4).blk t).view.emb (ix2 (0 : Fin 1) q)) = _
  refine congrArg _ ?_
  funext a; apply Fin.ext
  obtain ⟨-, -, -, -, -, -, -, -, e0, e1, -⟩ := idx_facts1 t
  match a with
  | ⟨0, _⟩ => show win1_4.index t (0 : Fin 2) * 1 + 1 * 0 = 0; omega
  | ⟨1, _⟩ => show win1_4.index t (1 : Fin 2) * 64 + 1 * q.val = q.val; omega

/-- The second weight matrix is staged whole. -/
theorem blk1_5 (c : Dev nD) (t : Fin cfg1.N) (k q : Fin 64) :
    iblk1 V c 5 t (ix2 k q) = V c main_v45 (ix2 k q) := by
  show V c main_v45 (((cfg1.win 5).blk t).view.emb (ix2 k q)) = _
  refine congrArg _ ?_
  funext a; apply Fin.ext
  obtain ⟨-, -, -, -, -, -, -, -, -, -, e0, e1, -⟩ := idx_facts1 t
  match a with
  | ⟨0, _⟩ => show win1_5.index t (0 : Fin 2) * 64 + 1 * k.val = k.val; omega
  | ⟨1, _⟩ => show win1_5.index t (1 : Fin 2) * 64 + 1 * q.val = q.val; omega

/-- The head's weight matrix is staged whole. -/
theorem blk1_6 (c : Dev nD) (t : Fin cfg1.N) (k : Fin 64) (q : Fin 32) :
    iblk1 V c 6 t (ix2 k q) = V c main_v48 (ix2 k q) := by
  show V c main_v48 (((cfg1.win 6).blk t).view.emb (ix2 k q)) = _
  refine congrArg _ ?_
  funext a; apply Fin.ext
  obtain ⟨-, -, -, -, -, -, -, -, -, -, -, -, e0, e1, -⟩ := idx_facts1 t
  match a with
  | ⟨0, _⟩ => show win1_6.index t (0 : Fin 2) * 64 + 1 * k.val = k.val; omega
  | ⟨1, _⟩ => show win1_6.index t (1 : Fin 2) * 32 + 1 * q.val = q.val; omega

/-- The head's bias row is staged whole. -/
theorem blk1_7 (c : Dev nD) (t : Fin cfg1.N) (q : Fin 32) :
    iblk1 V c 7 t (ix2 (0 : Fin 1) q) = V c main_v49 (ix2 (0 : Fin 1) q) := by
  show V c main_v49 (((cfg1.win 7).blk t).view.emb (ix2 (0 : Fin 1) q)) = _
  refine congrArg _ ?_
  funext a; apply Fin.ext
  obtain ⟨-, -, -, -, -, -, -, -, -, -, -, -, -, -, e0, e1, -⟩ := idx_facts1 t
  match a with
  | ⟨0, _⟩ => show win1_7.index t (0 : Fin 2) * 1 + 1 * 0 = 0; omega
  | ⟨1, _⟩ => show win1_7.index t (1 : Fin 2) * 32 + 1 * q.val = q.val; omega

/-- Where entry (p, q) of point t's block of the layer's output sits in its array. -/
theorem emb1_8 (t : Fin cfg1.N) (p : Fin 5000) (q : Fin 64) :
    ((cfg1.win 8).blk t).view.emb (ix2 p q) = ix2 (rowAt1 t p) q := by
  funext a; apply Fin.ext
  obtain ⟨-, -, -, -, -, -, -, -, -, -, -, -, -, -, -, -, e0, e1, -⟩ := idx_facts1 t
  match a with
  | ⟨0, _⟩ => show win1_8.index t (0 : Fin 2) * 5000 + 1 * p.val = t.val * 5000 + p.val; omega
  | ⟨1, _⟩ => show win1_8.index t (1 : Fin 2) * 64 + 1 * q.val = q.val; omega

/-- Where entry (p, q) of point t's block of the head's output sits in its array. -/
theorem emb1_9 (t : Fin cfg1.N) (p : Fin 5000) (q : Fin 32) :
    ((cfg1.win 9).blk t).view.emb (ix2 p q) = ix2 (rowAt1 t p) q := by
  funext a; apply Fin.ext
  obtain ⟨-, -, -, -, -, -, -, -, -, -, -, -, -, -, -, -, -, -, e0, e1⟩ := idx_facts1 t
  match a with
  | ⟨0, _⟩ => show win1_9.index t (0 : Fin 2) * 5000 + 1 * p.val = t.val * 5000 + p.val; omega
  | ⟨1, _⟩ => show win1_9.index t (1 : Fin 2) * 32 + 1 * q.val = q.val; omega

/-- The layer of the arrays the region finds. -/
abbrev G1h (c : Dev nD) : S100000x64.Idx → EReal :=
  Cert.Sage.layerK (V c main_v41) (V c main_v12) (V c main_v30) (V c main_v43) (V c main_v45) (V c main_v46)

/-- The head of that layer. -/
abbrev G1o (c : Dev nD) : S100000x32.Idx → EReal :=
  Cert.Sage.headK (G1h V c) (V c main_v48) (V c main_v49)

/-- The layer of point t's blocks is rows 5000·t … of the layer of the arrays. -/
theorem layer_rows1 (c : Dev nD) (t : Fin cfg1.N) (p : Fin 5000) (q : Fin 64) :
    Cert.Sage.layerK (iblk1 V c 0 t) (iblk1 V c 1 t) (iblk1 V c 2 t) (iblk1 V c 3 t) (iblk1 V c 5 t) (iblk1 V c 4 t) (ix2 p q)
      = G1h V c (ix2 (rowAt1 t p) q) :=
  Cert.Sage.layerK_rows (rowAt1 t) _ _ _ _ _ _ _ _ _ _ _ _ (blk1_0 V c t) (blk1_1 V c t) (blk1_2 V c t)
    (blk1_3 V c t) (blk1_5 V c t) (blk1_4 V c t) p q

/-- WHAT POINT t WRITES BACK into the layer's output is block t of the layer of the whole arrays. -/
theorem flushed1_8 (c : Dev nD) (t : Fin cfg1.N) :
    (dat1 V c).flushed 8 t = ((cfg1.win 8).blk t).view.read (Elt Ideal) (G1h V c) := by
  show (cfg1.win 8).cut (grid1.coords t) ((dat1 V c).after 8 t) = _
  rw [after1_8]
  unfold out1_8
  rw [View.canon_unit_zero hz1]
  simp only [View.ld_unit_zero (S := S5000x64) hz1, View.ld_unit_zero (S := S5000x1) hz1,
    View.ld_unit_zero (S := S64x64) hz1, View.ld_unit_zero (S := S1x64) hz1]
  rw [pay1_eq]
  funext j
  obtain ⟨p, q, rfl⟩ : ∃ (p : Fin 5000) (q : Fin 64), j = ix2 p q := ⟨j 0, j 1, eq_ix2 j⟩
  show Cert.Sage.layerK (iblk1 V c 0 t) (iblk1 V c 1 t) (iblk1 V c 2 t) (iblk1 V c 3 t) (iblk1 V c 5 t) (iblk1 V c 4 t) (ix2 p q)
    = G1h V c (((cfg1.win 8).blk t).view.emb (ix2 p q))
  rw [emb1_8 t p q]
  exact layer_rows1 V c t p q

/-- WHAT POINT t WRITES BACK into the head's output is block t of the head of the whole layer. -/
theorem flushed1_9 (c : Dev nD) (t : Fin cfg1.N) :
    (dat1 V c).flushed 9 t = ((cfg1.win 9).blk t).view.read (Elt Ideal) (G1o V c) := by
  show (cfg1.win 9).cut (grid1.coords t) ((dat1 V c).after 9 t) = _
  rw [after1_9]
  unfold out1_9
  rw [View.canon_unit_zero hz1]
  simp only [View.ld_unit_zero (S := S5000x64) hz1, View.ld_unit_zero (S := S5000x1) hz1,
    View.ld_unit_zero (S := S64x64) hz1, View.ld_unit_zero (S := S64x32) hz1, View.ld_unit_zero (S := S1x64) hz1,
    View.ld_unit_zero (S := S1x32) hz1]
  rw [pay2_eq]
  funext j
  obtain ⟨p, q, rfl⟩ : ∃ (p : Fin 5000) (q : Fin 32), j = ix2 p q := ⟨j 0, j 1, eq_ix2 j⟩
  show Cert.Sage.headK (Cert.Sage.layerK (iblk1 V c 0 t) (iblk1 V c 1 t) (iblk1 V c 2 t) (iblk1 V c 3 t) (iblk1 V c 5 t)
      (iblk1 V c 4 t)) (iblk1 V c 6 t) (iblk1 V c 7 t) (ix2 p q)
    = G1o V c (((cfg1.win 9).blk t).view.emb (ix2 p q))
  rw [emb1_9 t p q]
  exact Cert.Sage.headK_rows (rowAt1 t) _ _ _ _ _ _ (layer_rows1 V c t) (blk1_6 V c t) (blk1_7 V c t) p q

/-- An index of the layer's output array is in point t's block iff each coordinate is in the block's range. -/
theorem mem_blk1_8 (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v50_0).slice (win1_8.rect t)).set ↔ _
  rw [View.set_slice_whole, Rect.mem_set_unit]
  exact Iff.rfl

/-- An index of the head's output array is in point t's block iff each coordinate is in the block's range. -/
theorem mem_blk1_9 (t : Fin cfg1.N) (i : S100000x32.Idx) :
    i ∈ ((cfg1.win 9).blk t).view.set ↔ ∀ a : Fin 2, win1_9.index t a * S5000x32.size a ≤ (i a).val
      ∧ (i a).val < win1_9.index t a * S5000x32.size a + S5000x32.size a := by
  show i ∈ ((View.whole main_v50_1).slice (win1_9.rect t)).set ↔ _
  rw [View.set_slice_whole, Rect.mem_set_unit]
  exact Iff.rfl

/-- The 20 blocks tile the layer's output array: row r is in block r / 5000. -/
theorem cover1_8' (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  refine ⟨t, flush1_8 t, ?_⟩
  rw [mem_blk1_8]
  obtain ⟨-, -, -, -, -, -, -, -, -, -, -, -, -, -, -, -, e0, e1, -⟩ := idx_facts1 t
  have ht : t.val = (i 0).val / 5000 := rfl
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- The 20 blocks tile the head's output array. -/
theorem cover1_9' (i : S100000x32.Idx) :
    ∃ t : Fin cfg1.N, (cfg1.win 9).flush t = true ∧ i ∈ ((cfg1.win 9).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  refine ⟨t, flush1_9 t, ?_⟩
  rw [mem_blk1_9]
  obtain ⟨-, -, -, -, -, -, -, -, -, -, -, -, -, -, -, -, -, -, e0, e1⟩ := idx_facts1 t
  have ht : t.val = (i 0).val / 5000 := rfl
  intro a
  match a with
  | ⟨0, _⟩ =>
    show win1_9.index t (0 : Fin 2) * 5000 ≤ (i 0).val ∧ (i 0).val < win1_9.index t (0 : Fin 2) * 5000 + 5000
    omega
  | ⟨1, _⟩ =>
    show win1_9.index t (1 : Fin 2) * 32 ≤ (i 1).val ∧ (i 1).val < win1_9.index t (1 : Fin 2) * 32 + 32
    omega

/-- THE LAYER'S OUTPUT ARRAY after the region. -/
theorem final1_8 (c : Dev nD) : (dat1 V c).arrAt 8 cfg1.N = G1h V c :=
  (dat1 V c).arrAt_eq_of_cover 8 (G1h V c) (fun t _ => flushed1_8 V c t) cover1_8'

/-- THE HEAD'S OUTPUT ARRAY after the region. -/
theorem final1_9 (c : Dev nD) : (dat1 V c).arrAt 9 cfg1.N = G1o V c :=
  (dat1 V c).arrAt_eq_of_cover 9 (G1o V c) (fun t _ => flushed1_9 V c t) cover1_9'

end Cert.KernelIdeal.Hand

end
-- ==== Proof.RefTerms.lean ====
/-
  The network both programs compute, as one term of the argument arrays. The neighbourhood sums of a feature table
  (the rows gathered at the edges' sources, added into the rows of the edges' destinations), the in-degrees (ones
  added into the destinations) and the weight transposes are kept as the host's own whole-array operations — both
  programs apply the same ones to the same arrays, so they are never opened — and the dense part is
  `Cert.Sage.layerR` / `Cert.Sage.headR`, entry by entry on the extended reals:
      h1 = layer(x), h2 = layer(h1), logits = head(h2).
-/
import proofs.«134198_j72361609003660_2_alg».proof.Proof.Gen.ReferenceIdeal
import proofs.«134198_j72361609003660_2_alg».proof.Proof.Sage

noncomputable section

namespace Cert.ReferenceIdeal.Hand

open Idealize.ShloMosaic Cert.ReferenceIdeal Cert.ReferenceIdeal.Gen

/-- The edges' destinations (row 1 of the edge array) as a column of scatter indices. -/
def dstCol (E : (⟨S2x1250000, .i32⟩ : BufTy).Contents (Elt Ideal)) : (⟨S1250000x1, .i32⟩ : BufTy).Contents (Elt Ideal) :=
  broadcastInDim S1250000x1 ![0] bcast_S1250000_S1250000x1_0
    (shapeCast _ (extractStridedSlice S1x1250000 ![1, 0] E slices_S2x1250000_S1x1250000_1_0) shapeCasts_S1x1250000_S1250000)

/-- The edges' sources (row 0 of the edge array). -/
def srcRow (E : (⟨S2x1250000, .i32⟩ : BufTy).Contents (Elt Ideal)) : (⟨S1250000, .i32⟩ : BufTy).Contents (Elt Ideal) :=
  shapeCast _ (extractStridedSlice S1x1250000 ![0, 0] E slices_S2x1250000_S1x1250000_0_0) shapeCasts_S1x1250000_S1250000

/-- The sources as a column of gather indices, a negative index counted from the end of the table. -/
def srcCol (E : (⟨S2x1250000, .i32⟩ : BufTy).Contents (Elt Ideal)) : (⟨S1250000x1, .i32⟩ : BufTy).Contents (Elt Ideal) :=
  broadcastInDim S1250000x1 ![0] bcast_S1250000_S1250000x1_0
    (select (cmpi .slt (srcRow E) (broadcastInDim S1250000 ![] bcast_S_S1250000 (constantI S_ 32 0#32)))
      (addi (srcRow E) (broadcastInDim S1250000 ![] bcast_S_S1250000 (constantI S_ 32 100000#32))) (srcRow E))

/-- The neighbourhood sums of a feature table. -/
def agg (E : (⟨S2x1250000, .i32⟩ : BufTy).Contents (Elt Ideal)) (T : (⟨S100000x64, .f32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32)) (dstCol E)
    (Host.gather gather_S100000x64_S1250000x1_S1250000x64_1_0_n_n_0_1_164 T (srcCol E))

/-- The in-degrees clipped below at one. -/
def dclip (E : (⟨S2x1250000, .i32⟩ : BufTy).Contents (Elt Ideal)) : (⟨S100000, .f32⟩ : BufTy).Contents (Elt Ideal) :=
  maximumf
    (Host.scatterAdd scatter_S100000_S1250000x1_S1250000_n_0_0_1
      (broadcastInDim S100000 ![] bcast_S_S100000 (constant (F := Ideal) S_ .f32 0x00000000#32)) (dstCol E)
      (broadcastInDim S1250000 ![] bcast_S_S1250000 (constant (F := Ideal) S_ .f32 0x3F800000#32)))
    (broadcastInDim S100000 ![] bcast_S_S100000 (constant (F := Ideal) S_ .f32 0x3F800000#32))

/-- A 64 × 64 weight matrix transposed. -/
def tr64 (W : (⟨S64x64, .f32⟩ : BufTy).Contents (Elt Ideal)) : (⟨S64x64, .f32⟩ : BufTy).Contents (Elt Ideal) :=
  transpose S64x64 [1, 0] W transposes_S64x64_S64x64_1_0

/-- The 32 × 64 head matrix transposed. -/
def tr32 (W : (⟨S32x64, .f32⟩ : BufTy).Contents (Elt Ideal)) : (⟨S64x32, .f32⟩ : BufTy).Contents (Elt Ideal) :=
  transpose S64x32 [1, 0] W transposes_S32x64_S64x32_1_0

/-- One layer of the network on a feature table. -/
def layer (E : (⟨S2x1250000, .i32⟩ : BufTy).Contents (Elt Ideal)) (T : (⟨S100000x64, .f32⟩ : BufTy).Contents (Elt Ideal))
    (Wl : (⟨S64x64, .f32⟩ : BufTy).Contents (Elt Ideal)) (b : (⟨S64, .f32⟩ : BufTy).Contents (Elt Ideal))
    (Wr : (⟨S64x64, .f32⟩ : BufTy).Contents (Elt Ideal)) : (⟨S100000x64, .f32⟩ : BufTy).Contents (Elt Ideal) :=
  Cert.Sage.layerR (agg E T) (dclip E) T (tr64 Wl) (tr64 Wr) b

/-- The second layer's output h2, from the argument arrays. -/
def net2 (x : (⟨S100000x64, .f32⟩ : BufTy).Contents (Elt Ideal)) (E : (⟨S2x1250000, .i32⟩ : BufTy).Contents (Elt Ideal))
    (W1l : (⟨S64x64, .f32⟩ : BufTy).Contents (Elt Ideal)) (b1 : (⟨S64, .f32⟩ : BufTy).Contents (Elt Ideal))
    (W1r W2l : (⟨S64x64, .f32⟩ : BufTy).Contents (Elt Ideal)) (b2 : (⟨S64, .f32⟩ : BufTy).Contents (Elt Ideal))
    (W2r : (⟨S64x64, .f32⟩ : BufTy).Contents (Elt Ideal)) : (⟨S100000x64, .f32⟩ : BufTy).Contents (Elt Ideal) :=
  layer E (layer E x W1l b1 W1r) W2l b2 W2r

/-- The logits, from the argument arrays. -/
def netOut (x : (⟨S100000x64, .f32⟩ : BufTy).Contents (Elt Ideal)) (E : (⟨S2x1250000, .i32⟩ : BufTy).Contents (Elt Ideal))
    (W1l : (⟨S64x64, .f32⟩ : BufTy).Contents (Elt Ideal)) (b1 : (⟨S64, .f32⟩ : BufTy).Contents (Elt Ideal))
    (W1r W2l : (⟨S64x64, .f32⟩ : BufTy).Contents (Elt Ideal)) (b2 : (⟨S64, .f32⟩ : BufTy).Contents (Elt Ideal))
    (W2r : (⟨S64x64, .f32⟩ : BufTy).Contents (Elt Ideal)) (Wc : (⟨S32x64, .f32⟩ : BufTy).Contents (Elt Ideal))
    (bc : (⟨S32, .f32⟩ : BufTy).Contents (Elt Ideal)) : (⟨S100000x32, .f32⟩ : BufTy).Contents (Elt Ideal) :=
  Cert.Sage.headR (net2 x E W1l b1 W1r W2l b2 W2r) (tr32 Wc) bc

end Cert.ReferenceIdeal.Hand

end
-- ==== Proof.KernelHost.lean ====
/-
  The arrays the two regions find, as terms of the argument arrays. Before the first region the host computes the
  edges' two index columns, the in-degrees and their clipped reciprocals, the first neighbourhood sums, the weight
  transposes and the bias row; between the regions the second neighbourhood sums (from the first region's output)
  and the remaining transposes and bias rows. At the ideal values a change of float format is the identity, so each
  array is the network's own term (`Cert.ReferenceIdeal.Hand`'s neighbourhood sums, clipped degrees, transposes),
  spelt with the same host operations.
-/
import proofs.«134198_j72361609003660_2_alg».proof.Proof.Gen.KernelIdeal.Frame
import proofs.«134198_j72361609003660_2_alg».proof.Proof.RefTerms
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## What the first region finds -/

set_option maxHeartbeats 4000000 in
/-- The first neighbourhood sums: those of the node features. -/
theorem v24_eq (c : Dev nD) : V1 m ρ c main_v24
    = Cert.ReferenceIdeal.Hand.agg (m ((c : Thread nD τ).loc main_arg1)) (m ((c : Thread nD τ).loc main_arg0)) := by
  show StableHlo.after hostOps0 (W0 m ρ c) (Proc.devRef .tc main_v24) = _
  after_results_simp <;> rfl

set_option maxHeartbeats 4000000 in
/-- The column of reciprocals of the clipped in-degrees. -/
theorem v12_eq (c : Dev nD) : V1 m ρ c main_v12
    = shapeCast S100000x1 (Host.divf (F := Ideal)
        (broadcastInDim S100000 ![] bcast_S_S100000 (constant (F := Ideal) S_ .f32 0x3F800000#32))
        (Cert.ReferenceIdeal.Hand.dclip (m ((c : Thread nD τ).loc main_arg1)))) shapeCasts_S100000_S100000x1 := by
  show StableHlo.after hostOps0 (W0 m ρ c) (Proc.devRef .tc main_v12) = _
  after_results_simp <;> rfl

set_option maxHeartbeats 4000000 in
/-- The node features, in the narrow format: the same extended reals. -/
theorem v13_eq (c : Dev nD) : V1 m ρ c main_v13
    = (m ((c : Thread nD τ).loc main_arg0)) := by
  show StableHlo.after hostOps0 (W0 m ρ c) (Proc.devRef .tc main_v13) = _
  after_results_simp <;> rfl

set_option maxHeartbeats 4000000 in
/-- The first layer's neighbour weights, transposed. -/
theorem v26_eq (c : Dev nD) : V1 m ρ c main_v26
    = Cert.ReferenceIdeal.Hand.tr64 (m ((c : Thread nD τ).loc main_arg2)) := by
  show StableHlo.after hostOps0 (W0 m ρ c) (Proc.devRef .tc main_v26) = _
  after_results_simp <;> rfl

set_option maxHeartbeats 4000000 in
/-- The first layer's self weights, transposed. -/
theorem v28_eq (c : Dev nD) : V1 m ρ c main_v28
    = Cert.ReferenceIdeal.Hand.tr64 (m ((c : Thread nD τ).loc main_arg4)) := by
  show StableHlo.after hostOps0 (W0 m ρ c) (Proc.devRef .tc main_v28) = _
  after_results_simp <;> rfl

set_option maxHeartbeats 4000000 in
/-- The first layer's bias as one row. -/
theorem v29_eq (c : Dev nD) : V1 m ρ c main_v29
    = shapeCast S1x64 (m ((c : Thread nD τ).loc main_arg3)) shapeCasts_S64_S1x64 := by
  show StableHlo.after hostOps0 (W0 m ρ c) (Proc.devRef .tc main_v29) = _
  after_results_simp <;> rfl

/-! ## What the host operations before the first region leave for those after it -/

set_option maxHeartbeats 4000000 in
/-- The edges' sources. -/
theorem w1_v1 (c : Dev nD) : W1 m ρ c (Proc.devRef .tc main_v1)
    = Cert.ReferenceIdeal.Hand.srcRow (m ((c : Thread nD τ).loc main_arg1)) := by
  after_results_simp <;> rfl

set_option maxHeartbeats 4000000 in
/-- The edges' destinations. -/
theorem w1_v3 (c : Dev nD) : W1 m ρ c (Proc.devRef .tc main_v3)
    = shapeCast _ (extractStridedSlice S1x1250000 ![1, 0] (m ((c : Thread nD τ).loc main_arg1)) slices_S2x1250000_S1x1250000_1_0)
        shapeCasts_S1x1250000_S1250000 := by
  after_results_simp <;> rfl

set_option maxHeartbeats 4000000 in
/-- An argument array no host operation writes. -/
theorem w1_main_arg5 (c : Dev nD) : W1 m ρ c (Proc.devRef .tc main_arg5) = (m ((c : Thread nD τ).loc main_arg5)) := by
  after_results_simp <;> rfl

set_option maxHeartbeats 4000000 in
/-- An argument array no host operation writes. -/
theorem w1_main_arg6 (c : Dev nD) : W1 m ρ c (Proc.devRef .tc main_arg6) = (m ((c : Thread nD τ).loc main_arg6)) := by
  after_results_simp <;> rfl

set_option maxHeartbeats 4000000 in
/-- An argument array no host operation writes. -/
theorem w1_main_arg7 (c : Dev nD) : W1 m ρ c (Proc.devRef .tc main_arg7) = (m ((c : Thread nD τ).loc main_arg7)) := by
  after_results_simp <;> rfl

set_option maxHeartbeats 4000000 in
/-- An argument array no host operation writes. -/
theorem w1_main_arg8 (c : Dev nD) : W1 m ρ c (Proc.devRef .tc main_arg8) = (m ((c : Thread nD τ).loc main_arg8)) := by
  after_results_simp <;> rfl

set_option maxHeartbeats 4000000 in
/-- An argument array no host operation writes. -/
theorem w1_main_arg9 (c : Dev nD) : W1 m ρ c (Proc.devRef .tc main_arg9) = (m ((c : Thread nD τ).loc main_arg9)) := by
  after_results_simp <;> rfl

/-! ## What the second region finds -/

set_option maxHeartbeats 4000000 in
/-- The second neighbourhood sums: those of the first region's output. -/
theorem v41_eq (c : Dev nD) : V3 m ρ c main_v41
    = Cert.ReferenceIdeal.Hand.agg (m ((c : Thread nD τ).loc main_arg1)) (W2 m ρ c (Proc.devRef .tc main_v30)) := by
  show StableHlo.after hostOps1 (W2 m ρ c) (Proc.devRef .tc main_v41) = _
  after_results_simp
  rw [W2_of_ne m ρ c main_v1 (by decide), W2_of_ne m ρ c main_v3 (by decide), w1_v1 m ρ c, w1_v3 m ρ c]
  rfl

set_option maxHeartbeats 4000000 in
/-- The reciprocal column is the one the first region found. -/
theorem v12'_eq (c : Dev nD) : V3 m ρ c main_v12 = V1 m ρ c main_v12 := by
  show StableHlo.after hostOps1 (W2 m ρ c) (Proc.devRef .tc main_v12) = _
  after_results_simp
  exact ((W2_arr m ρ c 1).trans ((dat0 (V1 m ρ) c).arrAt_in 1 rfl cfg0.N)).trans (A_eq0 (V1 m ρ) c 1)

set_option maxHeartbeats 4000000 in
/-- The first region's output is passed on untouched. -/
theorem v30'_eq (c : Dev nD) : V3 m ρ c main_v30 = W2 m ρ c (Proc.devRef .tc main_v30) := by
  show StableHlo.after hostOps1 (W2 m ρ c) (Proc.devRef .tc main_v30) = _
  after_results_simp

set_option maxHeartbeats 4000000 in
/-- The second layer's neighbour weights, transposed. -/
theorem v43_eq (c : Dev nD) : V3 m ρ c main_v43 = Cert.ReferenceIdeal.Hand.tr64 (m ((c : Thread nD τ).loc main_arg5)) := by
  show StableHlo.after hostOps1 (W2 m ρ c) (Proc.devRef .tc main_v43) = _
  after_results_simp
  rw [W2_of_ne m ρ c main_arg5 (by decide), w1_main_arg5 m ρ c]
  rfl

set_option maxHeartbeats 4000000 in
/-- The second layer's self weights, transposed. -/
theorem v45_eq (c : Dev nD) : V3 m ρ c main_v45 = Cert.ReferenceIdeal.Hand.tr64 (m ((c : Thread nD τ).loc main_arg7)) := by
  show StableHlo.after hostOps1 (W2 m ρ c) (Proc.devRef .tc main_v45) = _
  after_results_simp
  rw [W2_of_ne m ρ c main_arg7 (by decide), w1_main_arg7 m ρ c]
  rfl

set_option maxHeartbeats 4000000 in
/-- The second layer's bias as one row. -/
theorem v46_eq (c : Dev nD) : V3 m ρ c main_v46 = shapeCast S1x64 (m ((c : Thread nD τ).loc main_arg6)) shapeCasts_S64_S1x64 := by
  show StableHlo.after hostOps1 (W2 m ρ c) (Proc.devRef .tc main_v46) = _
  after_results_simp
  rw [W2_of_ne m ρ c main_arg6 (by decide), w1_main_arg6 m ρ c]
  rfl

set_option maxHeartbeats 4000000 in
/-- The head's weights, transposed. -/
theorem v48_eq (c : Dev nD) : V3 m ρ c main_v48 = Cert.ReferenceIdeal.Hand.tr32 (m ((c : Thread nD τ).loc main_arg8)) := by
  show StableHlo.after hostOps1 (W2 m ρ c) (Proc.devRef .tc main_v48) = _
  after_results_simp
  rw [W2_of_ne m ρ c main_arg8 (by decide), w1_main_arg8 m ρ c]
  rfl

set_option maxHeartbeats 4000000 in
/-- The head's bias as one row. -/
theorem v49_eq (c : Dev nD) : V3 m ρ c main_v49 = shapeCast S1x32 (m ((c : Thread nD τ).loc main_arg9)) shapeCasts_S32_S1x32 := by
  show StableHlo.after hostOps1 (W2 m ρ c) (Proc.devRef .tc main_v49) = _
  after_results_simp
  rw [W2_of_ne m ρ c main_arg9 (by decide), w1_main_arg9 m ρ c]
  rfl

end Cert.KernelIdeal.Hand

end
-- ==== Proof.Bridge.lean ====
/-
  The reciprocal-degree column and the bias rows as the kernel's program lays them out, read at an index, and with
  them the kernel's arrangement of a layer and of the head as the reference's: the column entry at row r is
  1 / d(r), d(r) = max(degree(r), 1) ≥ 1 is never zero, and a vector reshaped to one row holds the vector.
-/
import proofs.«134198_j72361609003660_2_alg».proof.Proof.RefTerms
import proofs.«134198_j72361609003660_2_alg».proof.Proof.LibUnitAxes
import Idealize.ShloMosaic.Lib.ValueLayout
import Idealize.ShloMosaic.Lib.Pipeline.Value
import Idealize.ShloMosaic.Lib.IdealHost

noncomputable section

namespace Cert.ReferenceIdeal.Hand

open Idealize.ShloMosaic Idealize.ShloMosaic.ValueIdx Cert.ReferenceIdeal Cert.ReferenceIdeal.Gen

/-- The splat of the word of 1.0 reads the real one everywhere. -/
theorem bcast_one_at (hb : S_.BroadcastsInDim S100000 ![]) (i : S100000.Idx) :
    broadcastInDim S100000 ![] hb (constant (F := Ideal) S_ .f32 0x3F800000#32) i = 1 := by
  refine (broadcastInDim_apply ![] hb _ i ix0 (fun a => a.elim0)).trans ?_
  show Ideal.ofBits .f32 0x3F800000#32 = 1
  exact Ideal.ofBits_one_f32

/-- A degree array clipped below at one is not zero anywhere. -/
theorem clip_ne_zero (X : (⟨S100000, .f32⟩ : BufTy).Contents (Elt Ideal)) (hb : S_.BroadcastsInDim S100000 ![]) (i : S100000.Idx) :
    maximumf X (broadcastInDim S100000 ![] hb (constant (F := Ideal) S_ .f32 0x3F800000#32)) i ≠ 0 := by
  show max (X i) (broadcastInDim S100000 ![] hb (constant (F := Ideal) S_ .f32 0x3F800000#32) i) ≠ 0
  rw [bcast_one_at hb i]
  exact Cert.Sage.max_one_ne_zero _

/-- The clipped in-degrees are never zero. -/
theorem dclip_ne_zero (E : (⟨S2x1250000, .i32⟩ : BufTy).Contents (Elt Ideal)) (r : Fin 100000) : dclip E (ix1 r) ≠ 0 :=
  clip_ne_zero _ bcast_S_S100000 (ix1 r)

/-- A vector reshaped to a column holds the vector. -/
theorem col_at (x : (⟨S100000, .f32⟩ : BufTy).Contents (Elt Ideal)) (h1 : S100000.ShapeCasts S100000x1) (r : Fin 100000) :
    shapeCast S100000x1 x h1 (ix2 r (0 : Fin 1)) = x (ix1 r) :=
  Cert.LibUnitAxes.shapeCast_a_a1_apply (a := 100000) x h1 r (0 : Fin 1)

/-- The splat of one divided by an array holds the reciprocals. -/
theorem divone_at (D : (⟨S100000, .f32⟩ : BufTy).Contents (Elt Ideal)) (hb : S_.BroadcastsInDim S100000 ![]) (i : S100000.Idx) :
    Host.divf (F := Ideal) (broadcastInDim S100000 ![] hb (constant (F := Ideal) S_ .f32 0x3F800000#32)) D i = Ideal.div 1 (D i) := by
  show Ideal.div (broadcastInDim S100000 ![] hb (constant (F := Ideal) S_ .f32 0x3F800000#32) i) (D i) = _
  rw [bcast_one_at]

/-- The reciprocal column of a divisor array, read at row r. -/
theorem inv_at (D : (⟨S100000, .f32⟩ : BufTy).Contents (Elt Ideal)) (h1 : S100000.ShapeCasts S100000x1)
    (hb : S_.BroadcastsInDim S100000 ![]) (r : Fin 100000) :
    shapeCast S100000x1 (Host.divf (F := Ideal) (broadcastInDim S100000 ![] hb (constant (F := Ideal) S_ .f32 0x3F800000#32))
      D) h1 (ix2 r (0 : Fin 1)) = Ideal.div 1 (D (ix1 r)) :=
  (col_at _ h1 r).trans (divone_at D hb (ix1 r))

/-- THE KERNEL'S LAYER IS THE REFERENCE'S: on any tables and any divisors that are never zero, with the column of
    reciprocals and the bias as one row. -/
theorem layer_bridge (D : (⟨S100000, .f32⟩ : BufTy).Contents (Elt Ideal)) (hD : ∀ r : Fin 100000, D (ix1 r) ≠ 0)
    (A X : (⟨S100000x64, .f32⟩ : BufTy).Contents (Elt Ideal)) (WlT WrT : (⟨S64x64, .f32⟩ : BufTy).Contents (Elt Ideal))
    (b : (⟨S64, .f32⟩ : BufTy).Contents (Elt Ideal)) (h1 : S100000.ShapeCasts S100000x1)
    (hb : S_.BroadcastsInDim S100000 ![]) (h2 : S64.ShapeCasts S1x64) :
    Cert.Sage.layerK A (shapeCast S100000x1 (Host.divf (F := Ideal)
        (broadcastInDim S100000 ![] hb (constant (F := Ideal) S_ .f32 0x3F800000#32)) D) h1) X WlT WrT
        (shapeCast S1x64 b h2)
      = Cert.Sage.layerR A D X WlT WrT b :=
  Cert.Sage.layerK_eq_layerR A _ D X WlT WrT _ b (inv_at D h1 hb) hD
    (fun q => shapeCast_a_1a_apply b h2 (0 : Fin 1) q)

/-- THE KERNEL'S HEAD IS THE REFERENCE'S, the bias as one row. -/
theorem head_bridge (H : (⟨S100000x64, .f32⟩ : BufTy).Contents (Elt Ideal))
    (WcT : (⟨S64x32, .f32⟩ : BufTy).Contents (Elt Ideal)) (bc : (⟨S32, .f32⟩ : BufTy).Contents (Elt Ideal))
    (h2 : S32.ShapeCasts S1x32) :
    Cert.Sage.headK H WcT (shapeCast S1x32 bc h2) = Cert.Sage.headR H WcT bc :=
  Cert.Sage.headK_eq_headR H WcT _ bc (fun q => shapeCast_a_1a_apply bc h2 (0 : Fin 1) q)

end Cert.ReferenceIdeal.Hand

end
-- ==== Proof.KernelValue.lean ====
/-
  The idealized kernel's two results as the network of the argument arrays. The first region leaves the first layer
  of the node features in its output array (its blocks tile the array; the arrays it finds are the network's own
  terms; the kernel's arrangement of a layer is the reference's). The host then sums that array over the edges, and
  the second region leaves the second layer of it, and the head of the second layer, in its two output arrays.
-/
import proofs.«134198_j72361609003660_2_alg».proof.Proof.Region0
import proofs.«134198_j72361609003660_2_alg».proof.Proof.Region1
import proofs.«134198_j72361609003660_2_alg».proof.Proof.KernelHost
import proofs.«134198_j72361609003660_2_alg».proof.Proof.Bridge

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- THE FIRST REGION'S OUTPUT is the first layer of the node features. -/
theorem h1_eq (c : Dev nD) : W2 m ρ c (Proc.devRef .tc main_v30)
    = Cert.ReferenceIdeal.Hand.layer (m ((c : Thread nD τ).loc main_arg1)) (m ((c : Thread nD τ).loc main_arg0))
        (m ((c : Thread nD τ).loc main_arg2)) (m ((c : Thread nD τ).loc main_arg3)) (m ((c : Thread nD τ).loc main_arg4)) := by
  refine ((W2_arr m ρ c 6).trans (final0 (V1 m ρ) c)).trans ?_
  show Cert.Sage.layerK (V1 m ρ c main_v24) (V1 m ρ c main_v12) (V1 m ρ c main_v13) (V1 m ρ c main_v26)
    (V1 m ρ c main_v28) (V1 m ρ c main_v29) = _
  rw [v24_eq, v12_eq, v13_eq, v26_eq, v28_eq, v29_eq]
  exact Cert.ReferenceIdeal.Hand.layer_bridge (Cert.ReferenceIdeal.Hand.dclip (m ((c : Thread nD τ).loc main_arg1)))
    (Cert.ReferenceIdeal.Hand.dclip_ne_zero _) _ _ _ _ _ _ _ _

/-- The second layer of the arrays the second region finds is the network's second layer. -/
theorem g1h_eq (c : Dev nD) : G1h (V3 m ρ) c
    = Cert.ReferenceIdeal.Hand.net2 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7)) := by
  show Cert.Sage.layerK (V3 m ρ c main_v41) (V3 m ρ c main_v12) (V3 m ρ c main_v30) (V3 m ρ c main_v43)
    (V3 m ρ c main_v45) (V3 m ρ c main_v46) = _
  rw [v41_eq, v12'_eq, v12_eq, v30'_eq, v43_eq, v45_eq, v46_eq, h1_eq]
  exact Cert.ReferenceIdeal.Hand.layer_bridge (Cert.ReferenceIdeal.Hand.dclip (m ((c : Thread nD τ).loc main_arg1)))
    (Cert.ReferenceIdeal.Hand.dclip_ne_zero _) _ _ _ _ _ _ _ _

/-- THE SECOND REGION'S FIRST OUTPUT is the network's second layer. -/
theorem out1_val (c : Dev nD) : W4 m ρ c (Proc.devRef .tc main_v50_0)
    = Cert.ReferenceIdeal.Hand.net2 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7)) :=
  ((W4_arr m ρ c 8).trans (final1_8 (V3 m ρ) c)).trans (g1h_eq m ρ c)

/-- THE SECOND REGION'S SECOND OUTPUT is the network's logits. -/
theorem out0_val (c : Dev nD) : W4 m ρ c (Proc.devRef .tc main_v50_1)
    = Cert.ReferenceIdeal.Hand.netOut (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9)) := by
  refine ((W4_arr m ρ c 9).trans (final1_9 (V3 m ρ) c)).trans ?_
  show Cert.Sage.headK (G1h (V3 m ρ) c) (V3 m ρ c main_v48) (V3 m ρ c main_v49) = _
  rw [g1h_eq, v48_eq, v49_eq]
  exact Cert.ReferenceIdeal.Hand.head_bridge _ _ _ _

end Cert.KernelIdeal.Hand

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.RefSide.lean ====
/-
  The reference computes the network of RefTerms: its two results, as compositions of its own whole-array
  operations on the argument arrays, are the second layer's output and the logits stated entry by entry.

  The reference spells one layer as
      maximum( (a / bc(bc(d))) · WlT + bc(bc(b)) + x · WrT , bc(0) ),
  a the neighbourhood sums, d the clipped degrees, bc the broadcasts that lay the degree vector along every column, the
  bias vector along every row and the scalar zero everywhere. Read at row p and column q: the quotient's entry (p, k)
  is a(p, k) / d(p); a product's entry is the sum over the contracted coordinate k of the entries' products; the bias
  matrix's entry is b(q); the zero pattern is the extended real 0. That is `Cert.Sage.layerR` (`layer_expr_eq`), and
  the head is `Cert.Sage.headR` in the same way (`head_expr_eq`). Both are stated over arbitrary arrays, so the
  neighbourhood sums, the degrees and the transposed weights — the operations whose element depends on an operand's
  values, or that both programs apply alike — are never read at an index: the result terms are rewritten with the two
  equations, the inner layer first wherever it occurs, and what remains is the network's definition.
-/
import proofs.«134198_j72361609003660_2_alg».proof.Proof.Gen.ReferenceIdeal.Read
import proofs.«134198_j72361609003660_2_alg».proof.Proof.RefTerms
import proofs.«134198_j72361609003660_2_alg».proof.Proof.LibRowBias
import Idealize.ShloMosaic.Lib.StackMember
import Idealize.ShloMosaic.Lib.IdealHost

noncomputable section

open scoped BigOperators

namespace Cert.ReferenceIdeal.Hand

open Idealize.ShloMosaic Idealize.ShloMosaic.TcCoe Idealize.SL.Sem Cert.ReferenceIdeal Cert.ReferenceIdeal.Gen
open Idealize.ShloMosaic.ValueIdx

/-- A vector laid along every column of a matrix, the host's spelling: the vector broadcast along axis 0 to one column,
    the column broadcast along the rows. The entry at row r and column k is the vector's entry r. -/
theorem col_broadcastInDim_apply {α : Type} {m n : Nat} (d : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (k : Fin n) :
    broadcastInDim ⟨2, ![m, n]⟩ ![0, 1] h2 (broadcastInDim ⟨2, ![m, 1]⟩ ![0] h1 d) (ix2 r k) = d (ix1 r) := by
  refine (broadcastInDim_apply ![0, 1] h2 _ (ix2 r k) (ix2 r (0 : Fin 1)) ?_).trans ?_
  · intro a
    match a with
    | ⟨0, _⟩ =>
      show r.val = if m = 1 then 0 else r.val
      split
      · have := r.isLt; omega
      · rfl
    | ⟨1, _⟩ =>
      show (0 : ℕ) = if (1 : ℕ) = 1 then 0 else k.val
      simp
  · refine broadcastInDim_apply ![0] h1 d (ix2 r (0 : Fin 1)) (ix1 r) ?_
    intro a
    match a with
    | ⟨0, _⟩ =>
      show r.val = if m = 1 then 0 else r.val
      split
      · have := r.isLt; omega
      · rfl

/-- A product of an M × K matrix by a K × N one with the plain dimension numbers (contracted over the left operand's
    columns and the right operand's rows), read at row r and column c: the sum over k of A(r, k) · B(k, c). -/
theorem dotGeneral_at {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  subst hd
  exact StackMember.dotGeneral_plain_apply prec A B r c

/-- The reference's layer, as it spells it with whole-array operations, is the layer entry by entry. -/
theorem layer_expr_eq (A : (⟨S100000x64, .f32⟩ : BufTy).Contents (Elt Ideal)) (D : (⟨S100000, .f32⟩ : BufTy).Contents (Elt Ideal))
    (X : (⟨S100000x64, .f32⟩ : BufTy).Contents (Elt Ideal)) (WlT WrT : (⟨S64x64, .f32⟩ : BufTy).Contents (Elt Ideal))
    (b : (⟨S64, .f32⟩ : BufTy).Contents (Elt Ideal)) :
    (maximumf (addf (addf (Host.dotGeneral (F := Ideal) (φ₁ := .f32) (φ₂ := .f32) dot_S100000x64_S64x64_S100000x64_1_0_0_1_n_n none
          (Host.divf (F := Ideal) (φ := .f32) A ((broadcastInDim S100000x64 ![0, 1] bcast_S100000x1_S100000x64_0_1
            (broadcastInDim S100000x1 ![0] bcast_S100000_S100000x1_0 D)) : (⟨S100000x64, .f32⟩ : BufTy).Contents (Elt Ideal))) WlT)
          (broadcastInDim S100000x64 ![0, 1] bcast_S1x64_S100000x64_0_1 (broadcastInDim S1x64 ![1] bcast_S64_S1x64_1 b)))
        (Host.dotGeneral (F := Ideal) (φ₁ := .f32) (φ₂ := .f32) dot_S100000x64_S64x64_S100000x64_1_0_0_1_n_n none X WrT))
      (broadcastInDim S100000x64 ![] bcast_S_S100000x64 (constant (F := Ideal) S_ .f32 0x00000000#32))
      : (⟨S100000x64, .f32⟩ : BufTy).Contents (Elt Ideal))
    = Cert.Sage.layerR A D X WlT WrT b := by
  funext j
  obtain ⟨p, q, rfl⟩ : ∃ (p : Fin 100000) (q : Fin 64), j = ix2 p q := ⟨j 0, j 1, eq_ix2 j⟩
  rw [maximumf_apply, addf_apply, addf_apply]
  rw [dotGeneral_at dot_S100000x64_S64x64_S100000x64_1_0_0_1_n_n rfl, dotGeneral_at dot_S100000x64_S64x64_S100000x64_1_0_0_1_n_n rfl]
  rw [Cert.LibRowBias.row_broadcastInDim_apply]
  rw [broadcastInDim_scalar_apply, constant_apply, Ideal.ofBits_zero_f32]
  have hD : ∀ k : Fin 64, (broadcastInDim S100000x64 ![0, 1] bcast_S100000x1_S100000x64_0_1
      (broadcastInDim S100000x1 ![0] bcast_S100000_S100000x1_0 D) : (⟨S100000x64, .f32⟩ : BufTy).Contents (Elt Ideal)) (ix2 p k)
      = D (ix1 p) := fun k => col_broadcastInDim_apply D _ _ p k
  simp only [hostDivf_apply, hD]
  rfl

/-- The reference's head, as it spells it with whole-array operations, is the head entry by entry. -/
theorem head_expr_eq (H : (⟨S100000x64, .f32⟩ : BufTy).Contents (Elt Ideal)) (WcT : (⟨S64x32, .f32⟩ : BufTy).Contents (Elt Ideal))
    (bc : (⟨S32, .f32⟩ : BufTy).Contents (Elt Ideal)) :
    (addf (Host.dotGeneral (F := Ideal) (φ₁ := .f32) (φ₂ := .f32) dot_S100000x64_S64x32_S100000x32_1_0_0_1_n_n none H WcT)
        (broadcastInDim S100000x32 ![0, 1] bcast_S1x32_S100000x32_0_1 (broadcastInDim S1x32 ![1] bcast_S32_S1x32_1 bc))
      : (⟨S100000x32, .f32⟩ : BufTy).Contents (Elt Ideal))
    = Cert.Sage.headR H WcT bc := by
  funext j
  obtain ⟨p, q, rfl⟩ : ∃ (p : Fin 100000) (q : Fin 32), j = ix2 p q := ⟨j 0, j 1, eq_ix2 j⟩
  rw [addf_apply, dotGeneral_at dot_S100000x64_S64x32_S100000x32_1_0_0_1_n_n rfl, Cert.LibRowBias.row_broadcastInDim_apply]
  rfl

/-- THE SECOND LAYER'S OUTPUT: the reference's first result, as the composed term of its operations on the argument
    arrays, is the network's h2 = layer(layer(x)). -/
theorem out1_eq (m : (ℓ : Loc nD τ sig) → Buf (Elt Ideal) ℓ) (c : Dev nD) :
    Cert.ReferenceIdeal.Value.res_main_v59 (F := Ideal) m c
      = net2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v59
  rw [layer_expr_eq, layer_expr_eq]
  rfl

/-- THE LOGITS: the reference's other result is head(h2). -/
theorem out0_eq (m : (ℓ : Loc nD τ sig) → Buf (Elt Ideal) ℓ) (c : Dev nD) :
    Cert.ReferenceIdeal.Value.res_main_v64 (F := Ideal) m c
      = netOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v64
  rw [head_expr_eq, layer_expr_eq, layer_expr_eq]
  rfl

end Cert.ReferenceIdeal.Hand

end
-- ==== Proof.lean ====
/-
  The certificate of a two-layer neighbourhood-mean graph convolution with a linear head, its dense part as two
  pipelined kernels, against the plain array program: on the extended reals both compute
      h1 = relu((Σ x / d) · W1lᵀ + b1 + x · W1rᵀ),  h2 = relu((Σ h1 / d) · W2lᵀ + b2 + h1 · W2rᵀ),  logits = h2 · Wcᵀ + bc,
  Σ the sum of the sources' rows into the destinations' rows over the edges, d the in-degree clipped below at one.
  The kernel multiplies by the reciprocal 1 / d where the reference divides by d, and adds the bias after the second
  product where the reference adds it before: a quotient by a divisor that is not zero is the product with its
  inverse, and addition of extended reals is commutative and associative, so no entry has to be finite and the
  precondition is never opened. The sums over the edges, the degrees and the weight transposes are the same host
  operations on both sides and are never read at an index.

  The three frames are the generated ones (the reference's is its generated run with the results dropped); the ideal
  pass rewrote nothing, so `preserves` is trivial; `algebraic` pairs the kernel's run, its two result arrays read as
  the network of the argument arrays (Proof/KernelValue.lean), with the reference's generated run, its two result
  terms read as the same network (Proof/RefSide.lean).
-/
import proofs.«134198_j72361609003660_2_alg».proof.Defs
import proofs.«134198_j72361609003660_2_alg».proof.Proof.Gen.Kernel
import proofs.«134198_j72361609003660_2_alg».proof.Proof.Gen.Kernel.Skeleton
import proofs.«134198_j72361609003660_2_alg».proof.Proof.Gen.Kernel.Launch
import proofs.«134198_j72361609003660_2_alg».proof.Proof.Gen.Kernel.Points
import proofs.«134198_j72361609003660_2_alg».proof.Proof.Gen.Kernel.Frame
import proofs.«134198_j72361609003660_2_alg».proof.Proof.Gen.KernelIdeal
import proofs.«134198_j72361609003660_2_alg».proof.Proof.Gen.KernelIdeal.Skeleton
import proofs.«134198_j72361609003660_2_alg».proof.Proof.Gen.KernelIdeal.Launch
import proofs.«134198_j72361609003660_2_alg».proof.Proof.Gen.KernelIdeal.Points
import proofs.«134198_j72361609003660_2_alg».proof.Proof.Gen.KernelIdeal.Frame
import proofs.«134198_j72361609003660_2_alg».proof.Proof.Gen.ReferenceIdeal
import proofs.«134198_j72361609003660_2_alg».proof.Proof.Gen.ReferenceIdeal.Run
import proofs.«134198_j72361609003660_2_alg».proof.Proof.Gen.ReferenceIdeal.Read
import proofs.«134198_j72361609003660_2_alg».proof.Proof.Gen.Pre_finite_inputs
import proofs.«134198_j72361609003660_2_alg».proof.Proof.KernelRun
import proofs.«134198_j72361609003660_2_alg».proof.Proof.KernelValue
import proofs.«134198_j72361609003660_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2)
    (Cert.ReferenceIdeal.Value.run (F := Ideal) m ρ)

/-- From memories that agree on the arguments both programs end with the logits and the second layer's output of the
    same network of the argument arrays. -/
theorem algebraic : Cert.algebraic_KernelIdeal_ReferenceIdeal := by
  intro m ρ m' ρ' _ hagree
  refine ⟨_, _,
    (θ_run Cert.KernelIdeal.defs _ _).mono (fun r h c =>
      ⟨(h c).1.trans (Cert.KernelIdeal.Hand.out0_val m ρ c), (h c).2.1.trans (Cert.KernelIdeal.Hand.out1_val m ρ c), (h c).2.2⟩)
      (Cert.KernelIdeal.Gen.run_out (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Hand.out0_eq m' c, a0, a1, a2, a3, a4, a5, a6, a7, a8, a9]
  · obtain ⟨a0, a1, a2, a3, a4, a5, a6, a7, a8, a9⟩ := hagree c
    rw [Cert.ReferenceIdeal.Hand.out1_eq m' c, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
